-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x4096x1024 : Shape := ⟨3, ![4, 4096, 1024]⟩
abbrev S1024x1024 : Shape := ⟨2, ![1024, 1024]⟩
abbrev S_ : Shape := ⟨0, ![]⟩
abbrev S16384x1024 : Shape := ⟨2, ![16384, 1024]⟩
abbrev S2048x1024 : Shape := ⟨2, ![2048, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S4x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S4x4096x1024 : S16384x1024.ShapeCasts S4x4096x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .f32 = 32 ∨ (Rect.block (s := S16384x1024) S2048x1024.size (cc0_transform_2 i) (hinb0_2 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v10) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.ClipCancel.lean ====
/-
  A weight clamped to [-1, 1], subtracted and added back, on the extended reals.

  The reference forms  (a - c) + c  where c is the weight clamped between minus one and one. A clamped value lies
  between minus one and one, so it is a real number whatever the weight is, an infinite weight included; and
  subtracting a REAL number and adding it back returns every extended real a, the two infinities included
  (infinity minus a real is infinity, plus a real is infinity again). So the expression is a, entry by entry, with no
  finiteness asked of a or of the weight. Nothing here mentions a program.
-/
import Idealize.ShloMosaic.PureOps.Ideal.Laws
import Idealize.ShloMosaic.Lib.IdealHost
import Idealize.ShloMosaic.Lib.ValueIdx

noncomputable section

namespace Cert.ClipCancel

open Idealize.ShloMosaic Idealize.ShloMosaic.ValueIdx

/-- The f32 pattern of minus one is the real minus one. -/
theorem ofBits_neg_one_f32 : Ideal.ofBits .f32 0xBF800000#32 = ((-(1 : ℝ) : ℝ) : EReal) := by
  simp [Ideal.ofBits, Ideal.ieee, -EReal.coe_mul, -EReal.coe_neg]; norm_num

/-- Subtracting a real number and adding it back returns every extended real. -/
theorem sub_add_real (a : EReal) (c : ℝ) : a - (c : EReal) + (c : EReal) = a := by
  induction a using EReal.rec with
  | bot => rw [EReal.bot_sub, EReal.bot_add]
  | coe r => rw [← EReal.coe_sub, ← EReal.coe_add, sub_add_cancel]
  | top => rw [EReal.top_sub_coe, EReal.top_add_coe]

/-- A value clamped between minus one and one is a real number. -/
theorem clamped_real (w : EReal) :
    ∃ r : ℝ, min ((1 : ℝ) : EReal) (max ((-(1 : ℝ) : ℝ) : EReal) w) = (r : EReal) := by
  have hle : min ((1 : ℝ) : EReal) (max ((-(1 : ℝ) : ℝ) : EReal) w) ≤ ((1 : ℝ) : EReal) := min_le_left _ _
  have hge : ((-(1 : ℝ) : ℝ) : EReal) ≤ min ((1 : ℝ) : EReal) (max ((-(1 : ℝ) : ℝ) : EReal) w) :=
    le_min (EReal.coe_le_coe_iff.mpr (by norm_num)) (le_max_left _ _)
  exact ⟨_, (EReal.coe_toReal (ne_top_of_le_ne_top (EReal.coe_ne_top _) hle)
    (ne_bot_of_le_ne_bot (EReal.coe_ne_bot _) hge)).symm⟩

variable {s : Shape}

/-- An array clamped between the f32 words of minus one and one, as a host program spells it: the two scalar
    constants broadcast to the array's shape, a maximum with the lower one, a minimum with the upper one. -/
def clamp (h : (⟨0, ![]⟩ : Shape).BroadcastsInDim s ![]) (W : FVec Ideal s .f32) : FVec Ideal s .f32 :=
  minimumf (broadcastInDim s ![] h (id (constant (F := Ideal) ⟨0, ![]⟩ .f32 0x3F800000#32)))
    (maximumf (broadcastInDim s ![] h (id (constant (F := Ideal) ⟨0, ![]⟩ .f32 0xBF800000#32))) W)

/-- Entry by entry the clamp is the minimum with one of the maximum with minus one. -/
theorem clamp_apply (h : (⟨0, ![]⟩ : Shape).BroadcastsInDim s ![]) (W : FVec Ideal s .f32) (i : s.Idx) :
    clamp h W i = min ((1 : ℝ) : EReal) (max ((-(1 : ℝ) : ℝ) : EReal) (W i)) := by
  show min (broadcastInDim s ![] h (id (constant (F := Ideal) ⟨0, ![]⟩ .f32 0x3F800000#32)) i)
    (max (broadcastInDim s ![] h (id (constant (F := Ideal) ⟨0, ![]⟩ .f32 0xBF800000#32)) i) (W i)) = _
  rw [broadcastInDim_scalar_apply, broadcastInDim_scalar_apply]
  show min (Ideal.ofBits .f32 0x3F800000#32) (max (Ideal.ofBits .f32 0xBF800000#32) (W i)) = _
  rw [Ideal.ofBits_one_f32, ofBits_neg_one_f32, EReal.coe_one]

/-- The clamped array subtracted from any array and added back leaves that array. -/
theorem sub_add_clamp (h : (⟨0, ![]⟩ : Shape).BroadcastsInDim s ![]) (A W : FVec Ideal s .f32) :
    addf (subf A (clamp h W)) (clamp h W) = A := by
  funext i
  obtain ⟨r, hr⟩ := clamped_real (W i)
  show A i - clamp h W i + clamp h W i = A i
  rw [clamp_apply, hr]
  exact sub_add_real (A i) r

end Cert.ClipCancel

end
-- ==== Proof.RefValue.lean ====
/-
  The reference's two results as functions of its arguments, on the extended reals.

  The reference multiplies by the weight  (scale · sign W - clamp W) + clamp W,  where clamp W is W clamped to
  [-1, 1]. The clamped weight is a real number at every entry, so the expression is  scale · sign W  entry by entry
  (subtracting a real and adding it back changes no extended real). Hence the reference's second result is the sign of
  scale · sign W, and its first result at (b, s, o) is the sum over k of x(b, s, k) · (scale · sign W)(o, k).
-/
import proofs.«158823_j18270790877547_1_alg».proof.Proof.Gen.ReferenceIdeal.Read
import proofs.«158823_j18270790877547_1_alg».proof.Proof.ClipCancel

open scoped BigOperators

noncomputable section

namespace Cert.ReferenceIdeal.RefValue

open Cert.ReferenceIdeal Cert.ReferenceIdeal.Gen Cert.ReferenceIdeal.Read Idealize.ShloMosaic

/-- The weight the reference multiplies by is scale · sign W: the clamped weight cancels. -/
theorem weight_eq (W : (⟨S1024x1024, .f32⟩ : BufTy).Contents (Elt Ideal)) :
    val_main_v8 (F := Ideal) W = val_main_v6 (F := Ideal) W :=
  Cert.ClipCancel.sub_add_clamp bcast_S_S1024x1024 (val_main_v6 (F := Ideal) W) W

/-- The reference's second result is the sign of scale · sign W. -/
theorem assoc_eq (W : (⟨S1024x1024, .f32⟩ : BufTy).Contents (Elt Ideal)) :
    val_main_v9 (F := Ideal) W
      = Host.sign (F := Ideal) (s := S1024x1024) (φ := .f32) (val_main_v6 (F := Ideal) W) := by
  unfold val_main_v9
  rw [weight_eq]

/-- The reference's first result at an index is the sum over the contracted coordinate of the entries of x and of
    scale · sign W. -/
theorem out_apply (X : (⟨S4x4096x1024, .f32⟩ : BufTy).Contents (Elt Ideal))
    (W : (⟨S1024x1024, .f32⟩ : BufTy).Contents (Elt Ideal)) (i : S4x4096x1024.Idx) :
    val_main_v10 (F := Ideal) X W i
      = ∑ k : Fin 1024, X (lidx_main_v10 i k) * val_main_v6 (F := Ideal) W (ridx_main_v10 i k) := by
  rw [val_main_v10_apply, weight_eq]

end Cert.ReferenceIdeal.RefValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«158823_j18270790877547_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«158823_j18270790877547_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.KernelBlocks.lean ====
/-
  The kernel's product array, from its blocks.

  The grid has eight points. At point t the body loads rows 2048·t … 2048·t + 2047 of the left array (all 1024
  columns) and the whole right array, multiplies them into a zero accumulator and stores the 2048 × 1024 result,
  which the pipeline writes back as rows 2048·t … 2048·t + 2047 of the output. An entry of a product depends on one
  row of the left operand only, so what point t writes back is the same rows of the product of the two WHOLE
  arrays; row r of the output is written by point r / 2048, so the eight blocks fill the output, and the output
  array ends holding the product of the two arrays the region found.
-/
import proofs.«158823_j18270790877547_1_alg».proof.Proof.Gen.KernelIdeal.Frame
import proofs.«158823_j18270790877547_1_alg».proof.Proof.LibRowBlocks
import Idealize.ShloMosaic.Lib.Pipeline.Value
import Idealize.ShloMosaic.PureOps.Ideal

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx Idealize.ShloMosaic.Pipeline Cert.Lib.MatProd Cert.Lib.RowBlocks

/-- What the body stores is the product of the two blocks it loaded. -/
theorem body_eq (x0 : Vec Ideal S2048x1024 .bf16) (x1 : Vec Ideal S1024x1024 .bf16) :
    out0_2 (F := Ideal) x0 x1 = matProd x0 x1 := by
  unfold out0_2
  rw [View.canon_unit_zero zero_offset2]
  simp only [View.ld_unit_zero (S := S2048x1024) zero_offset2, View.ld_unit_zero (S := S1024x1024) zero_offset2]
  unfold k0_pay1
  simp only [shapeCast_self]
  exact matmul_zero_eq_matProd _ rfl rfl rfl rfl rfl rfl none x0 x1

/-- An entry of the product of a block of rows with a copy of the right array is the entry of the whole product at
    the index the block's entry sits at: the rows agree, the right arrays agree, the columns agree. -/
theorem block_entry (A : S16384x1024.Idx → EReal) (B : S1024x1024.Idx → EReal)
    (A' : S2048x1024.Idx → EReal) (B' : S1024x1024.Idx → EReal) (y : S2048x1024.Idx) (i : S16384x1024.Idx)
    (hA : ∀ k : Fin 1024, A' (ix2 (⟨(y 0).val, idx2_lt0 y⟩ : Fin 2048) k) = A (ix2 (⟨(i 0).val, idx2_lt0 i⟩ : Fin 16384) k))
    (hB : B' = B) (hcol : (y 1).val = (i 1).val) :
    matProd A' B' y = matProd A B i := by
  subst hB
  exact matProd_rows A A' B' y i hA hcol

/-- The printed index maps, decided over the grid: the left window's block row is the output's, every other block
    coordinate is zero, and the output's block row is one of the eight. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the eight row blocks is some point's. -/
theorem idx_onto : ∀ q : Fin 8, ∃ t : Fin cfg0.N, win0_2.index t = ![q.val, 0] :=
  (by decide +kernel : ∀ q : Fin 8, ∃ t : Fin grid0.N, win0_2.index t = ![q.val, 0])

variable (m : (ℓ : Loc nD τ sig) → Buf (Elt Ideal) ℓ)

/-- What point t writes back is block t of the product of the two arrays as the region finds them. -/
theorem flushed_eq (c : Dev nD) (t : Fin cfg0.N) :
    (dats m 0 c).flushed 2 t
      = ((cfg0.win 2).blk t).view.read (Elt Ideal) (matProd (V m c main_v10) (V m c main_v8)) := by
  show (cfg0.win 2).cut (grid0.coords t) ((dats m 0 c).after 2 t) = _
  rw [after0_2, body_eq]
  obtain ⟨e0, e1, e2, e3, e4, e5⟩ := idx_facts t
  funext y
  show matProd (iblk m c 0 t) (iblk m c 1 t) y
    = matProd (V m c main_v10) (V m c main_v8) (((cfg0.win 2).blk t).view.emb y)
  refine block_entry (V m c main_v10) (V m c main_v8) (iblk m c 0 t) (iblk m c 1 t) y
    (((cfg0.win 2).blk t).view.emb y) (fun k => ?_) ?_ ?_
  · show V m c main_v10 (((cfg0.win 0).blk t).view.emb (ix2 (⟨(y 0).val, idx2_lt0 y⟩ : Fin 2048) k)) = V m c main_v10 _
    refine congrArg _ (funext fun a => Fin.ext ?_)
    match a with
    | ⟨0, _⟩ =>
      show win0_0.index t (0 : Fin 2) * 2048 + 1 * (y 0).val = win0_2.index t (0 : Fin 2) * 2048 + 1 * (y 0).val
      rw [e0]
    | ⟨1, _⟩ =>
      show win0_0.index t (1 : Fin 2) * 1024 + 1 * k.val = k.val
      rw [e1]; omega
  · funext z
    show V m c main_v8 (((cfg0.win 1).blk t).view.emb z) = V m c main_v8 z
    refine congrArg _ (funext fun a => Fin.ext ?_)
    match a with
    | ⟨0, _⟩ =>
      show win0_1.index t (0 : Fin 2) * 1024 + 1 * (z 0).val = (z 0).val
      rw [e2]; omega
    | ⟨1, _⟩ =>
      show win0_1.index t (1 : Fin 2) * 1024 + 1 * (z 1).val = (z 1).val
      rw [e3]; omega
  · show (y 1).val = win0_2.index t (1 : Fin 2) * 1024 + 1 * (y 1).val
    rw [e4]; omega

/-- An index of the output is in point t's block iff each coordinate is in the block's range on its axis. -/
theorem mem_blk (t : Fin cfg0.N) (i : S16384x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v11).slice (win0_2.rect t)).set ↔ _
  rw [View.set_slice_whole, Rect.mem_set_unit]
  exact Iff.rfl

/-- Row r of the output lies in the block of the point whose block row is r / 2048: the blocks fill the output. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The output array after the run is the product of the two arrays the region found. -/
theorem final (c : Dev nD) : (dats m 0 c).arrAt 2 cfg0.N = matProd (V m c main_v10) (V m c main_v8) :=
  (dats m 0 c).arrAt_eq_of_cover 2 _ (fun t _ => flushed_eq m c t) cover

end Cert.KernelIdeal.BlockValue

end
-- ==== Proof.KernelHost.lean ====
/-
  What the kernel's host lines leave for the pallas_call, and its second result.

  Before the call the host computes the weight  scale · sign W  (scale the mean of |W|: the sum of the absolute
  values divided by the f32 word of 2^20), its sign (the second result), its transpose, and the input x with its
  two leading axes merged into one of 16384 rows; both operands of the call are then converted to bf16, which on the
  extended reals changes nothing. So the left array the region finds is x with entry (4096·b + s, k) = x(b, s, k),
  and the right array is the weight transposed: entry (k, o) is the weight's entry (o, k).
-/
import proofs.«158823_j18270790877547_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-- The weight scale · sign W, as the host lines spell it. -/
def weight (W : FVec Ideal S1024x1024 .f32) : FVec Ideal S1024x1024 .f32 :=
  mulf (broadcastInDim S1024x1024 ![] bcast_S_S1024x1024
      (Host.divf
        (Host.reduceAdd (F := Ideal) (Host.absf W) (constant (F := Ideal) S_ .f32 0x00000000#32)
          reducesTo_S1024x1024_S_d0_1 h_S_)
        (constant (F := Ideal) S_ .f32 0x49800000#32)))
    (Host.sign W)

variable (m : (ℓ : Loc nD τ sig) → Buf (Elt Ideal) ℓ)

/-- The left array the region finds: x with its two leading axes merged (the conversion to bf16 is the identity). -/
theorem left_eq (c : Dev nD) :
    (V m c main_v10 : S16384x1024.Idx → EReal)
      = shapeCast S16384x1024 (m ((c : Thread nD τ).loc main_arg0)) shapeCasts_S4x4096x1024_S16384x1024 := by
  show StableHlo.after hostOps0 (fun b => m (c, b)) (Proc.devRef .tc main_v10) = _
  after_results
  rfl

/-- The right array the region finds: the weight transposed (the conversion to bf16 is the identity). -/
theorem right_eq (c : Dev nD) :
    (V m c main_v8 : S1024x1024.Idx → EReal)
      = transpose S1024x1024 [1, 0] (weight (m ((c : Thread nD τ).loc main_arg1))) transposes_S1024x1024_S1024x1024_1_0 := by
  show StableHlo.after hostOps0 (fun b => m (c, b)) (Proc.devRef .tc main_v8) = _
  after_results
  rfl

/-- The second result: the sign of the weight. -/
theorem assoc_eq (c : Dev nD) :
    (V m c main_v6 : S1024x1024.Idx → EReal)
      = Host.sign (F := Ideal) (s := S1024x1024) (φ := .f32) (weight (m ((c : Thread nD τ).loc main_arg1))) := by
  show StableHlo.after hostOps0 (fun b => m (c, b)) (Proc.devRef .tc main_v6) = _
  after_results
  rfl

/-- The left array at row 4096·b + s and column k is x at (b, s, k). -/
theorem left_apply (c : Dev nD) (b : Fin 4) (s : Fin 4096) (k : Fin 1024) (r : Fin 16384) (hr : r.val = b.val * 4096 + s.val) :
    V m c main_v10 (ix2 r k) = m ((c : Thread nD τ).loc main_arg0) (ix3 b s k) := by
  rw [left_eq]
  refine shapeCast_apply _ _ _ _ ?_
  show (S4x4096x1024.rowMajor (ix3 b s k)).val = (S16384x1024.rowMajor (ix2 r k)).val
  rw [Shape.rowMajor_val_two, Shape.rowMajor_val_three]
  show (b.val * 4096 + s.val) * 1024 + k.val = r.val * 1024 + k.val
  rw [hr]

/-- The right array at (k, o) is the weight at (o, k). -/
theorem right_apply (c : Dev nD) (k o : Fin 1024) :
    V m c main_v8 (ix2 k o) = weight (m ((c : Thread nD τ).loc main_arg1)) (ix2 o k) := by
  rw [right_eq]
  refine transpose_apply _ _ _ _ _ fun a => ?_
  match a with
  | ⟨0, _⟩ => rfl
  | ⟨1, _⟩ => rfl

end Cert.KernelIdeal.HostValue

end
-- ==== Proof.KernelRun.lean ====
/-
  The kernel's run with its two results named.

  After the pallas_call one host line re-shapes the 16384 × 1024 product array to 4 × 4096 × 1024: entry (b, s, o) is
  the product's entry (4096·b + s, o), which is the sum over k of the left array at (4096·b + s, k) times the right
  array at (k, o), that is of x(b, s, k) times the weight's entry (o, k). The second result, the sign of the weight, is
  written before the call and nothing after it touches it.
-/
import proofs.«158823_j18270790877547_1_alg».proof.Proof.KernelBlocks
import proofs.«158823_j18270790877547_1_alg».proof.Proof.KernelHost

open scoped BigOperators

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx Cert.Lib.MatProd Cert.KernelIdeal.HostValue

/-- The first result as a function of the arguments: at (b, s, o) the sum over k of x(b, s, k) · weight(o, k). -/
def out (X : FVec Ideal S4x4096x1024 .f32) (W : FVec Ideal S1024x1024 .f32) : S4x4096x1024.Idx → EReal :=
  fun i => ∑ k : Fin 1024, X (ix3 (i 0) (i 1) k) * weight W (ix2 (i 2) k)

/-- The second result as a function of the arguments: the sign of the weight. -/
def assoc (W : FVec Ideal S1024x1024 .f32) : S1024x1024.Idx → EReal :=
  Host.sign (F := Ideal) (s := S1024x1024) (φ := .f32) (weight W)

variable (m : (ℓ : Loc nD τ sig) → Buf (Elt Ideal) ℓ) (ρ : Dev nD → PrngReg)

/-- A product of a 16384 × 1024 array L with a 1024 × 1024 array R, re-shaped to 4 × 4096 × 1024, is `out` of x and W
    when row 4096·b + s of L is x's row (b, s) and R is the weight of W transposed. -/
theorem reshaped_product_of (L : S16384x1024.Idx → EReal) (R : S1024x1024.Idx → EReal)
    (X : S4x4096x1024.Idx → EReal) (W : FVec Ideal S1024x1024 .f32)
    (hL : ∀ (b : Fin 4) (s : Fin 4096) (k : Fin 1024) (r : Fin 16384), r.val = b.val * 4096 + s.val →
      L (ix2 r k) = X (ix3 b s k))
    (hR : ∀ k o : Fin 1024, R (ix2 k o) = weight W (ix2 o k)) :
    shapeCast S4x4096x1024 (matProd L R) shapeCasts_S16384x1024_S4x4096x1024 = out X W := by
  funext i
  obtain ⟨b, s, o, rfl⟩ : ∃ (b : Fin 4) (s : Fin 4096) (o : Fin 1024), i = ix3 b s o := ⟨i 0, i 1, i 2, eq_ix3 i⟩
  have hb := b.isLt
  have hs := s.isLt
  refine (shapeCast_apply _ _ (ix3 b s o) (ix2 (⟨b.val * 4096 + s.val, by omega⟩ : Fin 16384) o) ?_).trans ?_
  · show (S16384x1024.rowMajor (ix2 (⟨b.val * 4096 + s.val, by omega⟩ : Fin 16384) o)).val
      = (S4x4096x1024.rowMajor (ix3 b s o)).val
    rw [Shape.rowMajor_val_two, Shape.rowMajor_val_three]
    rfl
  · rw [matProd_apply]
    show _ = ∑ k : Fin 1024, X (ix3 b s k) * weight W (ix2 o k)
    exact Finset.sum_congr rfl fun k _ => by rw [hL b s k _ rfl, hR k o]

/-- The product of the two arrays the region finds, re-shaped, is `out` of the arguments. -/
theorem reshaped_product (c : Dev nD) :
    shapeCast S4x4096x1024 (matProd (V m c main_v10) (V m c main_v8)) shapeCasts_S16384x1024_S4x4096x1024
      = out (m ((c : Thread nD τ).loc main_arg0)) (m ((c : Thread nD τ).loc main_arg1)) :=
  reshaped_product_of (V m c main_v10) (V m c main_v8) (m ((c : Thread nD τ).loc main_arg0))
    (m ((c : Thread nD τ).loc main_arg1)) (fun b s k r hr => left_apply m c b s k r hr) (fun k o => right_apply m c k o)

/-- The host line after the call leaves the first result at `out` of the arguments. -/
theorem tail_out (c : Dev nD) :
    (Pipeline.afterTail₀ cfgs (dats m) 0 (V0 m) [hostOps1] c main_v12 : S4x4096x1024.Idx → EReal)
      = out (m ((c : Thread nD τ).loc main_arg0)) (m ((c : Thread nD τ).loc main_arg1)) := by
  unfold Pipeline.afterTail₀
  show StableHlo.after hostOps1 _ (Proc.devRef .tc main_v12) = _
  after_results
  rw [Pipeline.withArrays_arr spec0 launch0.win.arr_inj c _ _ 2]
  show shapeCast S4x4096x1024 ((dats m 0 c).arrAt 2 cfg0.N) shapeCasts_S16384x1024_S4x4096x1024 = _
  rw [BlockValue.final m c]
  exact reshaped_product m c

/-- It does not write the second result, which stays the sign of the weight. -/
theorem tail_assoc (c : Dev nD) :
    (Pipeline.afterTail₀ cfgs (dats m) 0 (V0 m) [hostOps1] c main_v6 : S1024x1024.Idx → EReal)
      = assoc (m ((c : Thread nD τ).loc main_arg1)) := by
  unfold Pipeline.afterTail₀
  rw [StableHlo.after_of_forall_not_mem (b := Proc.devRef .tc main_v6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v6 (by exact (by decide : ∀ w, Pipeline.arrRef spec0 w ≠ main_v6))]
  exact assoc_eq m c

/-- Every weakly fair execution of the kernel's program terminates with the two results at `out` and `assoc` of the
    arguments and the arguments unchanged. -/
theorem run : θ_run defs (onTc (τ := τ) (main (F := Ideal))) ⟨m, fun _ => 0, ρ⟩ fun r => ∀ c : Dev nD,
      r.2.mem ((c.tc : Thread nD τ).loc main_v12)
        = out (m ((c.tc : Thread nD τ).loc main_arg0)) (m ((c.tc : Thread nD τ).loc main_arg1))
      ∧ r.2.mem ((c.tc : Thread nD τ).loc main_v6) = assoc (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (tail_out m c),
      ((h c).2 main_v6 (Pipeline.mem_restRefs_of main_v6 (by decide) (by decide))).trans (tail_assoc m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.Bridge.lean ====
/-
  The kernel's two results and the reference's are the same functions of the arguments.

  Both programs compute the weight scale · sign W by the same operations on the same words, so it is one function.
  The reference's second result is the sign of that weight once its clamped term has cancelled, and so is the
  kernel's. The reference's first result at (b, s, o) is the sum over k of x(b, s, k) times the weight's entry (o, k):
  it contracts x's last axis with the weight's second axis; the kernel's is the same sum, taken block of rows by
  block of rows over the merged axis 4096·b + s against the transposed weight. The two sums have the same terms.
-/
import proofs.«158823_j18270790877547_1_alg».proof.Proof.RefValue
import proofs.«158823_j18270790877547_1_alg».proof.Proof.KernelRun

open scoped BigOperators

noncomputable section

namespace Cert.Bridge

open Idealize.ShloMosaic Idealize.ShloMosaic.ValueIdx
open Cert.ReferenceIdeal.Read Cert.KernelIdeal.RunValue Cert.KernelIdeal.HostValue

/-- The two programs spell the weight scale · sign W identically. -/
theorem weight_same (W : FVec Ideal Cert.KernelIdeal.S1024x1024 .f32) :
    val_main_v6 (F := Ideal) W = weight W := rfl

/-- The reference's second result is the kernel's: the sign of the weight. -/
theorem assoc_same (W : FVec Ideal Cert.KernelIdeal.S1024x1024 .f32) :
    val_main_v9 (F := Ideal) W = assoc W :=
  Cert.ReferenceIdeal.RefValue.assoc_eq W

/-- The reference's first result is the kernel's: index by index the same sum of products. -/
theorem out_same (X : FVec Ideal Cert.KernelIdeal.S4x4096x1024 .f32) (W : FVec Ideal Cert.KernelIdeal.S1024x1024 .f32) :
    val_main_v10 (F := Ideal) X W = out X W := by
  funext i
  rw [Cert.ReferenceIdeal.RefValue.out_apply]
  show _ = ∑ k : Fin 1024, X (ix3 (i 0) (i 1) k) * weight W (ix2 (i 2) k)
  refine Finset.sum_congr rfl fun k _ => ?_
  have el : lidx_main_v10 i k = ix3 (i 0) (i 1) k := funext fun a => by
    match a with
    | ⟨0, _⟩ => rfl
    | ⟨1, _⟩ => rfl
    | ⟨2, _⟩ => rfl
  have er : ridx_main_v10 i k = ix2 (i 2) k := funext fun a => by
    match a with
    | ⟨0, _⟩ => rfl
    | ⟨1, _⟩ => rfl
  rw [el, er, weight_same]
  rfl

end Cert.Bridge

end
-- ==== Proof.lean ====
/-
  A binarized linear layer: out = x · (scale · sign W)ᵀ with scale the mean of |W|, and the sign of that weight.

  The kernel's program computes the weight scale · sign W on the host, transposes it, merges x's two leading axes,
  and multiplies the two in a pallas_call over eight blocks of 2048 rows, each block a plain product into a zero
  accumulator; a last host line re-shapes the product. The reference computes the same weight, but as
  (scale · sign W - clamp W) + clamp W with clamp W the weight clamped to [-1, 1], and contracts x's last axis with the
  weight's second axis in one dot_general.

  On the extended reals the two agree. A clamped entry lies between minus one and one, so it is a real number, and
  subtracting a real number and adding it back returns every extended real: the reference's weight is
  scale · sign W, with no finiteness asked. The kernel's output array is filled by its eight blocks, and an entry of a
  product depends on one row of the left operand, so the array is the product of the two whole arrays; entry
  (4096·b + s, o) of it is the sum over k of x(b, s, k) times the weight's entry (o, k), which is the reference's
  contraction at (b, s, o). The second result is the sign of the weight in both. Changes of float format are the
  identity on the extended reals. The ideal pass rewrote nothing, so the idealized kernel is the kernel's own text.
-/
import proofs.«158823_j18270790877547_1_alg».proof.Defs
import proofs.«158823_j18270790877547_1_alg».proof.Proof.Gen.Kernel
import proofs.«158823_j18270790877547_1_alg».proof.Proof.Gen.Kernel.Skeleton
import proofs.«158823_j18270790877547_1_alg».proof.Proof.Gen.Kernel.Launch
import proofs.«158823_j18270790877547_1_alg».proof.Proof.Gen.Kernel.Points
import proofs.«158823_j18270790877547_1_alg».proof.Proof.Gen.Kernel.Frame
import proofs.«158823_j18270790877547_1_alg».proof.Proof.Gen.KernelIdeal
import proofs.«158823_j18270790877547_1_alg».proof.Proof.Gen.KernelIdeal.Skeleton
import proofs.«158823_j18270790877547_1_alg».proof.Proof.Gen.KernelIdeal.Launch
import proofs.«158823_j18270790877547_1_alg».proof.Proof.Gen.KernelIdeal.Points
import proofs.«158823_j18270790877547_1_alg».proof.Proof.Gen.KernelIdeal.Frame
import proofs.«158823_j18270790877547_1_alg».proof.Proof.Gen.ReferenceIdeal
import proofs.«158823_j18270790877547_1_alg».proof.Proof.Gen.ReferenceIdeal.Run
import proofs.«158823_j18270790877547_1_alg».proof.Proof.Gen.ReferenceIdeal.Read
import proofs.«158823_j18270790877547_1_alg».proof.Proof.Gen.Pre_finite_inputs
import proofs.«158823_j18270790877547_1_alg».proof.Proof.Bridge
import Idealize.ShloMosaic.Adequacy
import Idealize.ShloMosaic.Init

noncomputable section

namespace Cert.Proof

open Idealize.ShloMosaic Idealize.SL.Sem

/-- The kernel's program, as printed, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on x and W the two programs end with the same two results: the kernel's run leaves
    them at the sum of products and at the sign of the weight, and the reference's results are those functions of
    the same arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2]
    exact (Cert.ReferenceIdeal.Read.val_main_v10_eq _ _).trans (Cert.Bridge.out_same _ _)
  · rw [(hagree c).2]
    exact (Cert.ReferenceIdeal.Read.val_main_v9_eq _).trans (Cert.Bridge.assoc_same _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
